-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x512 : Shape := ⟨2, ![10000, 512]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_

variable [Facts]

def fn {F : FTy → Type} [FloatOps F] (main_arg0 : FVec F S10000x10000 .f32) (main_arg1 : FVec F S10000x512 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  main_v8
-- ==== Kernel.lean ====
abbrev S10000x10000 : Shape := ⟨2, ![10000, 10000]⟩
abbrev S10000x512 : Shape := ⟨2, ![10000, 512]⟩
abbrev S400x10000 : Shape := ⟨2, ![400, 10000]⟩
abbrev S2000x512 : Shape := ⟨2, ![2000, 512]⟩
abbrev S400x512 : Shape := ⟨2, ![400, 512]⟩

abbrev nBuf : Space → Nat
  | .hbm => 3
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S10000x512, .f32⟩
  | .hbm, ⟨2, _⟩ => ⟨S10000x512, .f32⟩
  | .local _ .vmem, ⟨0, _⟩ => ⟨S400x10000, .f32⟩
  | .local _ .vmem, ⟨1, _⟩ => ⟨S400x10000, .f32⟩
  | .local _ .vmem, ⟨2, _⟩ => ⟨S2000x512, .f32⟩
  | .local _ .vmem, ⟨3, _⟩ => ⟨S2000x512, .f32⟩
  | .local _ .vmem, ⟨4, _⟩ => ⟨S400x512, .f32⟩
  | .local _ .vmem, ⟨5, _⟩ => ⟨S400x512, .f32⟩
  | .local _ .vmem, ⟨6, _⟩ => ⟨S10000x512, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![25, 5], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c2000_i32 : BitVec 32 := 2000#32
  let v8 : BitVec 32 := Scalar.muli arg1 c2000_i32
  let v9 : Index := Scalar.indexCast v8
  let c0_3 : Index := 0#32
  ![v9.toNat, 0]
def k0_cond2 (i : grid0.Coords) : BitVec 1 :=
  let arg1 : BitVec 32 := BitVec.ofNat 32 (i 1).val
  let c4_i32 : BitVec 32 := 4#32
  let v3 : BitVec 1 := Scalar.cmpi .eq arg1 c4_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.select v0 arg1 c4_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S400x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  shapeCasts_S2000x512_S2000x512 : S2000x512.ShapeCasts S2000x512
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  inb_S400x512_S400x512_0_0 : ∀ a, (![0, 0] : Fin 2 → Nat) a + S400x512.size a ≤ S400x512.size a
  h_S400x512 : 0 < S400x512.numel
  dot_S400x10000_S10000x512_S400x512_1_0_0_1_n_n_wf : DotDims.WF S400x10000 S10000x512 S400x512 [1] [0] [0] [1] [] []
  hrank0 : 0 < grid0.rank
  k0_off1_inb : ∀ i : grid0.Coords, ∀ (k0_h1 : k0_cond1 i = 1#1), ∀ a, (k0_off1 i) a + S2000x512.size a ≤ S10000x512.size a
  k0_off1_packedbf16 : ∀ i : grid0.Coords, ∀ (k0_h1 : k0_cond1 i = 1#1), (Rect.unit (s := S10000x512) (k0_off1 i) S2000x512.size (k0_off1_inb i k0_h1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S10000x512.size a
  hwx0_1 : ∀ i : grid0.Coords, EltTy.bits .f32 = 32 ∨ (Rect.block (s := S10000x512) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x512.size a ≤ S10000x512.size a
  hwx0_2 : ∀ i : grid0.Coords, EltTy.bits .f32 = 32 ∨ (Rect.block (s := S10000x512) S400x512.size (cc0_transform_2 i) (hinb0_2 i)).WholeWords (EltTy.packing .f32)

variable [Facts₀]

def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x512 : Shape := ⟨2, ![10000, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x512, .f32⟩
  | .hbm, ⟨2, _⟩ => ⟨S10000x512, .f32⟩
  | .hbm, ⟨3, _⟩ => ⟨S_, .f32⟩
  | .hbm, ⟨4, _⟩ => ⟨S10000x512, .f32⟩
  | .hbm, ⟨5, _⟩ => ⟨S10000x512, .i1⟩
  | .hbm, ⟨6, _⟩ => ⟨S_, .f32⟩
  | .hbm, ⟨7, _⟩ => ⟨S10000x512, .f32⟩
  | .hbm, ⟨8, _⟩ => ⟨S10000x512, .f32⟩
  | .hbm, ⟨9, _⟩ => ⟨S10000x512, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S10000x512 : S_.BroadcastsInDim S10000x512 (![] : Fin 0 → Fin S10000x512.rank)
  dot_S10000x10000_S10000x512_S10000x512_1_0_0_1_n_n_wf : DotDims.WF S10000x10000 S10000x512 S10000x512 [1] [0] [0] [1] [] []

variable [Facts₀]

def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.Kernel.Shared.lean ====
/-
  What the four control cases of the kernel body share.

  The grid has 25 x 5 points, visited row-major: point t has row-block t / 5 and chunk t % 5.
  The body has two conditionals on the coordinates. The first (row-block 0, i.e. t < 5) casts the
  chunk of the second operand it was handed and stores it into rows [2000 (t % 5), 2000 (t % 5) + 2000)
  of the resident scratch. The second (chunk 4, i.e. t % 5 = 4) multiplies the row-block of the first
  operand by the whole scratch and stores the rectified product into the output block; elsewhere the
  output window is idle and is not written back.
-/
import proofs.«165077_g85667417686476_cont_9to1_m_276_7_alg».proof.Proof.Gen.Kernel.Frame
import proofs.«165077_g85667417686476_cont_9to1_m_276_7_alg».proof.Proof.Gen.Kernel.Skeleton
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, in closed form over the grid -/

/-- The first conditional's condition: the point is in the first row-block. -/
abbrev cond0_0 (i : grid0.Coords) : Prop := k0_cond1 i = 1#1
theorem hcond0_0 : ∀ t : Fin cfg0.N, cond0_0 (grid0.coords t) ↔ t.val < 5 :=
  (by decide +kernel : ∀ t : Fin grid0.N, cond0_0 (grid0.coords t) ↔ t.val < 5)

/-- The second conditional's condition: the point is the last chunk of its row-block. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-- The scratch slice a point of the first row-block stores begins at row 2000 (t % 5), column 0. -/
theorem hoff1 : ∀ t : Fin cfg0.N, k0_off1 (grid0.coords t) = ![2000 * (t.val % 5), 0] :=
  (by decide +kernel : ∀ t : Fin grid0.N, k0_off1 (grid0.coords t) = ![2000 * (t.val % 5), 0])

/-! ## Where the windows are idle and where the output is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S400x512 .f32 := win0_2.stage (cfg0.slots t 2)
abbrev hs0_2 (t : Fin cfg0.N) : (ms0_2 t).IsWhole := hstage0_2 ((cfg0.slots t 2).cast nbuf0_2)
/-- The resident scratch: a whole scoped buffer of the kernel's own. -/
abbrev scM0_0 : Memref sig .tc .vmem S10000x512 .bf16 := Memref.whole cc0_scratch0

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.Kernel.Scratch.lean ====
/-
  What the resident scratch holds, as a function of how many chunks have been stored into it.

  The scratch has 10000 rows. A point of the first row-block with chunk number k overwrites rows
  [2000 k, 2000 k + 2000) with the cast of the chunk of the second operand it was handed; nothing
  else ever writes the scratch. So after the points 0 .. n-1 every row r with r / 2000 < n holds the
  cast of row r % 2000 of chunk r / 2000, and from n = 5 on that is the whole scratch.
-/
import proofs.«165077_g85667417686476_cont_9to1_m_276_7_alg».proof.Proof.Kernel.Shared
import Idealize.ShloMosaic.Lib.ValueIdx
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Loads and stores through whole-block rectangles -/

theorem zero2 : (![0, 0] : Fin 2 → ℕ) = fun _ => 0 := by
  funext a; match a with | ⟨0, _⟩ => rfl | ⟨1, _⟩ => rfl

/-- A load of the whole block of a whole buffer whose contents read `X` is `X`. -/
theorem readAt_whole_unread {S : Shape} {e : EltTy} {mr : Memref sig .tc .vmem S e} (hm : mr.IsWhole)
    {off : Fin S.rank → ℕ} (hz : off = fun _ => 0) (inb : ∀ a, off a + S.size a ≤ S.size a) (X : S.Idx → Elt F e) :
    mr.view.readAt (Elt F) (Rect.unit (s := S) off S.size inb).toLoadRect (hm.unread X) = X :=
  (View.readAt_eq_ld mr.view (hm.unread X) (Rect.unit off S.size inb)).trans (by rw [hm.read_unread, View.ld_unit_zero hz])

/-- A load of the whole block of a buffer is what the buffer reads. -/
theorem readAt_whole {S : Shape} {e : EltTy} (mr : Memref sig .tc .vmem S e)
    {off : Fin S.rank → ℕ} (hz : off = fun _ => 0) (inb : ∀ a, off a + S.size a ≤ S.size a) (f : mr.view.ty.Contents (Elt F)) :
    mr.view.readAt (Elt F) (Rect.unit (s := S) off S.size inb).toLoadRect f = mr.view.read (Elt F) f :=
  (View.readAt_eq_ld mr.view f (Rect.unit off S.size inb)).trans (View.ld_unit_zero hz inb _)

/-- One store through the whole block leaves its payload. -/
theorem read_writes_whole2 {d : Fin 2 → ℕ} {e : EltTy} (mr : Memref sig .tc .vmem (⟨2, d⟩ : Shape) e)
    (f : mr.view.ty.Contents (Elt F)) (inb : ∀ a : Fin 2, (![0, 0] : Fin 2 → ℕ) a + d a ≤ d a)
    (w : (⟨2, d⟩ : Shape).Idx → Elt F e) :
    mr.view.read (Elt F) (mr.view.writes (Elt F) f [⟨Rect.unit (s := ⟨2, d⟩) ![0, 0] d inb, w⟩]) = w :=
  funext fun y => View.read_writes_cons_unit_of_mem mr.view f inb w [] y y rfl (fun a => by
    match a with
    | ⟨0, _⟩ => exact (Nat.zero_add _).symm
    | ⟨1, _⟩ => exact (Nat.zero_add _).symm)

/-! ## Rows replaced -/

/-- `xs` with rows [o, o + 2000) replaced by the 2000 rows of `w`. -/
def putRows (xs : Vec F S10000x512 .bf16) (o : ℕ) (w : Vec F S2000x512 .bf16) : Vec F S10000x512 .bf16 :=
  fun y => if h : o ≤ (y 0).val ∧ (y 0).val < o + 2000 then
      w (ValueIdx.ix2 ⟨(y 0).val - o, by omega⟩ ⟨(y 1).val, ValueIdx.idx2_lt1 y⟩)
    else xs y

/-- A whole buffer that read `xs`, after one store of `w` through rows [o, o + 2000), reads `putRows xs o w`. -/
theorem read_put {mr : Memref sig .tc .vmem S10000x512 .bf16} (hm : mr.IsWhole) (xs : Vec F S10000x512 .bf16)
    (off : Fin 2 → ℕ) (inb : ∀ a, off a + S2000x512.size a ≤ S10000x512.size a) (w : Vec F S2000x512 .bf16)
    (o : ℕ) (hoff : off = ![o, 0]) :
    mr.view.read (Elt F) (mr.view.writes (Elt F) (hm.unread xs) [⟨Rect.unit (s := S10000x512) off S2000x512.size inb, w⟩])
      = putRows xs o w := by
  funext y
  unfold putRows
  by_cases h : o ≤ (y 0).val ∧ (y 0).val < o + 2000
  · rw [dif_pos h]
    exact View.read_writes_cons_rows_of_mem mr.view (hm.unread xs) inb w [] y
      (ValueIdx.ix2 ⟨(y 0).val - o, by omega⟩ ⟨(y 1).val, ValueIdx.idx2_lt1 y⟩) hoff
      (by show (y 0).val = o + ((y 0).val - o); omega) rfl
  · rw [dif_neg h]
    refine (View.read_writes_cons_rows_of_not_mem (W := 2000) mr.view (hm.unread xs) inb w [] y hoff rfl (by omega)).trans ?_
    rw [View.writes_nil, hm.read_unread]

/-- The slice's offsets are its row offset and column 0. -/
theorem off1_eq (i : grid0.Coords) : k0_off1 i = ![k0_off1 i 0, 0] := by
  funext a; match a with | ⟨0, _⟩ => rfl | ⟨1, _⟩ => rfl

/-! ## The cast of the second operand, chunk by chunk -/

theorem chunk_lt (y : S10000x512.Idx) : (y 0).val / 2000 < cfg0.N := by
  have h := ValueIdx.idx2_lt0 y
  have hN : cfg0.N = 125 := N_0
  omega

/-- Row r of the full scratch: row r % 2000 of what the point with chunk number r / 2000 stores. -/
def castAll (c : Dev nD) : Vec F S10000x512 .bf16 := fun y =>
  k0_pay1 (iblk m c 1 ⟨(y 0).val / 2000, chunk_lt y⟩)
    (ValueIdx.ix2 ⟨(y 0).val % 2000, Nat.mod_lt _ (by norm_num)⟩ ⟨(y 1).val, ValueIdx.idx2_lt1 y⟩)

/-- The rows of the chunks below `n` hold the cast. -/
def Filled (c : Dev nD) (n : ℕ) (d : Vec F S10000x512 .bf16) : Prop :=
  ∀ y : S10000x512.Idx, (y 0).val / 2000 < n → d y = castAll m c y

theorem Filled_zero (c : Dev nD) (d : Vec F S10000x512 .bf16) : Filled m c 0 d := fun _ h => absurd h (Nat.not_lt_zero _)

/-- From the fifth chunk on the scratch is the cast, whole. -/
theorem Filled.eq_castAll {c : Dev nD} {n : ℕ} {d : Vec F S10000x512 .bf16} (h : Filled m c n d) (hn : 5 ≤ n) :
    d = castAll m c :=
  funext fun y => h y (by have := ValueIdx.idx2_lt0 y; omega)

theorem Filled.of_eq {c : Dev nD} (n : ℕ) {d : Vec F S10000x512 .bf16} (h : d = castAll m c) : Filled m c n d :=
  fun y _ => congrFun h y

/-- Past the first row-block nothing is stored and nothing was missing. -/
theorem Filled.succ_of_ge {c : Dev nD} {n : ℕ} {d : Vec F S10000x512 .bf16} (h : Filled m c n d) (hn : 5 ≤ n) :
    Filled m c (n + 1) d := Filled.of_eq m (n + 1) (h.eq_castAll m hn)

theorem pay1_congr (c : Dev nD) (t t' : Fin cfg0.N) (a a' : Fin 2000) (b : Fin 512) (ht : t = t') (ha : a = a') :
    k0_pay1 (iblk m c 1 t) (ValueIdx.ix2 a b) = k0_pay1 (iblk m c 1 t') (ValueIdx.ix2 a' b) := by
  subst ht; subst ha; rfl

/-- A point of the first row-block fills its own chunk's rows. -/
theorem Filled.put {c : Dev nD} (t : Fin cfg0.N) (ht : t.val < 5) {xs : Vec F S10000x512 .bf16} (h : Filled m c t.val xs) :
    Filled m c (t.val + 1) (putRows xs (2000 * (t.val % 5)) (k0_pay1 (iblk m c 1 t))) := by
  intro y hy
  have hmod : t.val % 5 = t.val := Nat.mod_eq_of_lt ht
  unfold putRows
  by_cases hr : 2000 * (t.val % 5) ≤ (y 0).val ∧ (y 0).val < 2000 * (t.val % 5) + 2000
  · rw [dif_pos hr]
    unfold castAll
    exact pay1_congr m c _ _ _ _ _ (Fin.ext (by show t.val = (y 0).val / 2000; omega))
      (Fin.ext (by show (y 0).val - 2000 * (t.val % 5) = (y 0).val % 2000; omega))
  · rw [dif_neg hr]
    exact h y (by omega)

end Cert.Kernel.Body

end
-- ==== Proof.Kernel.Runs.lean ====
/-
  The kernel body run in each of its four control cases, on any whole memrefs: what it needs of the
  buffers it is handed and what it leaves in them.

  A point of the first row-block replaces the rows of its chunk in the scratch by the cast of the
  chunk it was handed (`putRows`); a point with the last chunk number multiplies the block of the
  first operand by whatever the scratch then reads (after its own store, if it made one) and leaves
  the rectified product in the output block. The other buffers are left as they were.
-/
import proofs.«165077_g85667417686476_cont_9to1_m_276_7_alg».proof.Proof.Kernel.Scratch

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Neither conditional taken: the body touches nothing. -/
theorem kernelRun0_C (c : Dev nD) (i : grid0.Coords) (arg2 : Memref sig .tc .vmem S400x10000 .f32) (harg2 : arg2.IsWhole) (arg3 : Memref sig .tc .vmem S2000x512 .f32) (harg3 : arg3.IsWhole) (arg4 : Memref sig .tc .vmem S400x512 .f32) (harg4 : arg4.IsWhole) (arg5 : Memref sig .tc .vmem S10000x512 .bf16) (harg5 : arg5.IsWhole) (hc0 : ¬cond0_0 i) (hc1 : ¬cond0_1 i)
    (R : sProp 𝕄) (E : Set ℕ) (K : PUnit → sProp 𝕄) :
    iprop(R ∗ (R -∗ K ⟨⟩)) ⊢ wp frame (wpE (defs₀ (F := F)) Variants.none c none) E (cc0__gcn_block_kernel i arg2 harg2 arg3 harg3 arg4 harg4 arg5 harg5) K := by
  simp only [cc0__gcn_block_kernel_eq_skeleton]; unfold cc0__gcn_block_kernel_skel
  iintro ⟨HR, Hk⟩
  sl_exec (disch := first | exact hc0 | exact hc1)
  sl_step
  iapply Hk
  iexact HR

set_option maxHeartbeats 4000000 in
/-- First row-block, not the last chunk: the chunk's rows of the scratch are replaced by its cast. -/
theorem kernelRun0_A (c : Dev nD) (i : grid0.Coords) (arg2 : Memref sig .tc .vmem S400x10000 .f32) (harg2 : arg2.IsWhole) (arg3 : Memref sig .tc .vmem S2000x512 .f32) (harg3 : arg3.IsWhole) (arg4 : Memref sig .tc .vmem S400x512 .f32) (harg4 : arg4.IsWhole) (arg5 : Memref sig .tc .vmem S10000x512 .bf16) (harg5 : arg5.IsWhole) (hc0 : cond0_0 i) (hc1 : ¬cond0_1 i)
    (x1 : Vec F S2000x512 .f32) (xs : Vec F S10000x512 .bf16) (E : Set ℕ) (K : PUnit → sProp 𝕄) :
    iprop(owns (c : Thread nD τ) arg3 fullShare x1 ∗ owns (c : Thread nD τ) arg5 fullShare xs
        ∗ (iprop(owns (c : Thread nD τ) arg3 fullShare x1 ∗ owns (c : Thread nD τ) arg5 fullShare (putRows xs (k0_off1 i 0) (k0_pay1 x1))) -∗ K ⟨⟩))
      ⊢ wp frame (wpE (defs₀ (F := F)) Variants.none c none) E (cc0__gcn_block_kernel i arg2 harg2 arg3 harg3 arg4 harg4 arg5 harg5) K := by
  simp only [cc0__gcn_block_kernel_eq_skeleton]; unfold cc0__gcn_block_kernel_skel
  unfold owns
  iintro ⟨⟨%f1, %hf1, H1⟩, ⟨%fs0, %hfs0, HS0⟩, Hk⟩
  obtain rfl := harg3.eq_unread hf1; obtain rfl := harg5.eq_unread hfs0
  sl_exec (disch := first | exact hc0 | exact hc1)
  sl_step
  iapply Hk
  isplitl [H1]
  · iexists _; isplitr; · ipureintro; exact harg3.read_unread _
    iexact H1
  iexists _; isplitr
  swap; · iexact HS0
  ipureintro
  sl_unfold_run_names
  rw [readAt_whole_unread harg3 zero2]
  exact read_put harg5 xs _ _ _ _ (off1_eq i)

set_option maxHeartbeats 4000000 in
/-- Past the first row-block, the last chunk: the output block is the rectified product of the first
    operand's block with the scratch. -/
theorem kernelRun0_D (c : Dev nD) (i : grid0.Coords) (arg2 : Memref sig .tc .vmem S400x10000 .f32) (harg2 : arg2.IsWhole) (arg3 : Memref sig .tc .vmem S2000x512 .f32) (harg3 : arg3.IsWhole) (arg4 : Memref sig .tc .vmem S400x512 .f32) (harg4 : arg4.IsWhole) (arg5 : Memref sig .tc .vmem S10000x512 .bf16) (harg5 : arg5.IsWhole) (hc0 : ¬cond0_0 i) (hc1 : cond0_1 i)
    (x0 : Vec F S400x10000 .f32) (x2 : Vec F S400x512 .f32) (xs : Vec F S10000x512 .bf16) (E : Set ℕ) (K : PUnit → sProp 𝕄) :
    iprop(owns (c : Thread nD τ) arg2 fullShare x0 ∗ owns (c : Thread nD τ) arg4 fullShare x2 ∗ owns (c : Thread nD τ) arg5 fullShare xs
        ∗ (iprop(owns (c : Thread nD τ) arg2 fullShare x0 ∗ owns (c : Thread nD τ) arg4 fullShare (k0_pay2 x0 xs) ∗ owns (c : Thread nD τ) arg5 fullShare xs) -∗ K ⟨⟩))
      ⊢ wp frame (wpE (defs₀ (F := F)) Variants.none c none) E (cc0__gcn_block_kernel i arg2 harg2 arg3 harg3 arg4 harg4 arg5 harg5) K := by
  simp only [cc0__gcn_block_kernel_eq_skeleton]; unfold cc0__gcn_block_kernel_skel
  unfold owns
  iintro ⟨⟨%f0, %hf0, H0⟩, ⟨%f2, %hf2, H2⟩, ⟨%fs0, %hfs0, HS0⟩, Hk⟩
  obtain rfl := harg2.eq_unread hf0; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H2]
  · iexists _; isplitr
    swap; · iexact H2
    ipureintro
    sl_unfold_run_names
    rw [readAt_whole_unread harg2 zero2, readAt_whole_unread harg5 zero2]
    exact read_writes_whole2 arg4 _ _ _
  iexists _; isplitr; · ipureintro; exact harg5.read_unread _
  iexact HS0

set_option maxHeartbeats 4000000 in
/-- First row-block, the last chunk: the chunk's rows are replaced, and the output block is the rectified
    product with the scratch as it reads AFTER that store. -/
theorem kernelRun0_B (c : Dev nD) (i : grid0.Coords) (arg2 : Memref sig .tc .vmem S400x10000 .f32) (harg2 : arg2.IsWhole) (arg3 : Memref sig .tc .vmem S2000x512 .f32) (harg3 : arg3.IsWhole) (arg4 : Memref sig .tc .vmem S400x512 .f32) (harg4 : arg4.IsWhole) (arg5 : Memref sig .tc .vmem S10000x512 .bf16) (harg5 : arg5.IsWhole) (hc0 : cond0_0 i) (hc1 : cond0_1 i)
    (x0 : Vec F S400x10000 .f32) (x1 : Vec F S2000x512 .f32) (x2 : Vec F S400x512 .f32) (xs : Vec F S10000x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 (putRows xs (k0_off1 i 0) (k0_pay1 x1)))
            ∗ owns (c : Thread nD τ) arg5 fullShare (putRows xs (k0_off1 i 0) (k0_pay1 x1))) -∗ K ⟨⟩))
      ⊢ wp frame (wpE (defs₀ (F := F)) Variants.none c none) E (cc0__gcn_block_kernel i arg2 harg2 arg3 harg3 arg4 harg4 arg5 harg5) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [readAt_whole_unread harg2 zero2, readAt_whole_unread harg3 zero2, readAt_whole arg5 zero2,
      read_put harg5 xs _ _ _ _ (off1_eq i)]
    exact read_writes_whole2 arg4 _ _ _
  iexists _; isplitr
  swap; · iexact HS0
  ipureintro
  sl_unfold_run_names
  rw [readAt_whole_unread harg3 zero2]
  exact read_put harg5 xs _ _ _ _ (off1_eq i)

end Cert.Kernel.Body

end
-- ==== Proof.Kernel.Body.lean ====
/-
  The frame of the one region, with its contents named.

  Proof data: each input window's buffer holds its block at every point; the output window's buffer,
  at a point with the last chunk number (where it is written back), holds the rectified product of the
  first operand's row-block with the cast of the whole second operand; the region's invariant before
  point n says the scratch holds SOME contents whose rows of the chunks below n are the cast.
  The body obligation is the four runs, selected by the closed forms of the two conditions.
-/
import proofs.«165077_g85667417686476_cont_9to1_m_276_7_alg».proof.Proof.Kernel.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block and the invariant hold -/

/-- The output block at a point that writes it back. -/
def outAt (c : Dev nD) (t : Fin cfg0.N) : Vec F S400x512 .f32 := k0_pay2 (iblk m c 0 t) (castAll m c)

/-- The invariant before point `n`: the scratch at contents filled below chunk `n`, and the generator register. -/
def PhiS (c : Dev nD) (n : ℕ) : sProp 𝕄 :=
  iprop(iprop(∃ d, ⌜Filled m c n d⌝ ∗ owns (c : Thread nD τ) scM0_0 fullShare d) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- The slice a point of the first row-block stores starts at row 2000 (t % 5). -/
theorem off1_row (t : Fin cfg0.N) : k0_off1 (grid0.coords t) 0 = 2000 * (t.val % 5) := by
  rw [hoff1 t]; rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_castSucc, Phi_succ]
  unfold PhiS
  have hN : t.val < 125 := lt_of_lt_of_eq t.isLt (show cfg0.N = 125 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val < 5
  · by_cases h1 : t.val % 5 = 4
    · -- first row-block, last chunk: the scratch becomes whole, the product is taken with it
      rw [show (dats m 0 c).leavesExact 2 t = owns (c : Thread nD τ) (ms0_2 t) fullShare ((dats m 0 c).after 2 t) from by
        unfold Dat.leavesExact; rw [liveAt0_2 t ((hcond0_1 t).mpr h1)], after0_2]
      iintro ⟨⟨⟨%d, %hd, HS0⟩, Hg⟩, Ho, ⟨%d0, H0⟩, ⟨%d1, H1⟩, ⟨%d2, H2⟩⟩
      have hfill : Filled m c (t.val + 1) (putRows d (k0_off1 (grid0.coords t) 0) (k0_pay1 (iblk m c 1 t))) := by
        rw [off1_row]; exact Filled.put m t h0 hd
      have hall : k0_pay2 (iblk m c 0 t) (putRows d (k0_off1 (grid0.coords t) 0) (k0_pay1 (iblk m c 1 t))) = outAt m c t := by
        unfold outAt; rw [hfill.eq_castAll m (by omega)]
      irw [← hall]
      iapply (kernelRun0_B c (grid0.coords t) _ _ _ _ _ _ _ _ ((hcond0_0 t).mpr h0) ((hcond0_1 t).mpr h1) (iblk m c 0 t) (iblk m c 1 t) _ d Set.univ _)
      isplitl [H0]; · iexact H0
      isplitl [H1]; · iexact H1
      isplitl [H2]; · iexact H2
      isplitl [HS0]; · iexact HS0
      iintro ⟨H0, H1, H2, HS0⟩
      isplitl [HS0 Hg]
      · isplitl [HS0]
        · iexists _; isplitr; · ipureintro; exact hfill
          iexact HS0
        iexact Hg
      isplitl [Ho]; · iexact Ho
      isplitl [H0]; · iexact H0
      isplitl [H1]; · iexact H1
      iexact H2
    · -- first row-block, an earlier chunk: one more chunk of the scratch is filled; the output is idle
      rw [Dat.leavesExact_idle (dats m 0 c) 2 t (idleAt0_2 t (fun h => h1 ((hcond0_1 t).mp h))) (noFlush0_2 t (fun h => h1 ((hcond0_1 t).mp h)))]
      iintro ⟨⟨⟨%d, %hd, HS0⟩, Hg⟩, Ho, ⟨%d0, H0⟩, ⟨%d1, H1⟩, ⟨%d2, H2⟩⟩
      have hfill : Filled m c (t.val + 1) (putRows d (k0_off1 (grid0.coords t) 0) (k0_pay1 (iblk m c 1 t))) := by
        rw [off1_row]; exact Filled.put m t h0 hd
      iapply (kernelRun0_A c (grid0.coords t) _ _ _ _ _ _ _ _ ((hcond0_0 t).mpr h0) (fun h => h1 ((hcond0_1 t).mp h)) (iblk m c 1 t) d Set.univ _)
      isplitl [H1]; · iexact H1
      isplitl [HS0]; · iexact HS0
      iintro ⟨H1, HS0⟩
      isplitl [HS0 Hg]
      · isplitl [HS0]
        · iexists _; isplitr; · ipureintro; exact hfill
          iexact HS0
        iexact Hg
      isplitl [Ho]; · iexact Ho
      isplitl [H0]; · iexact H0
      isplitl [H1]; · iexact H1
      iexists _; iexact H2
  · by_cases h1 : t.val % 5 = 4
    · -- a later row-block, last chunk: the scratch is whole already
      rw [show (dats m 0 c).leavesExact 2 t = owns (c : Thread nD τ) (ms0_2 t) fullShare ((dats m 0 c).after 2 t) from by
        unfold Dat.leavesExact; rw [liveAt0_2 t ((hcond0_1 t).mpr h1)], after0_2]
      iintro ⟨⟨⟨%d, %hd, HS0⟩, Hg⟩, Ho, ⟨%d0, H0⟩, ⟨%d1, H1⟩, ⟨%d2, H2⟩⟩
      have hall : d = castAll m c := hd.eq_castAll m (by omega)
      subst hall
      unfold outAt
      iapply (kernelRun0_D c (grid0.coords t) _ _ _ _ _ _ _ _ (fun h => h0 ((hcond0_0 t).mp h)) ((hcond0_1 t).mpr h1) (iblk m c 0 t) _ (castAll m c) Set.univ _)
      isplitl [H0]; · iexact H0
      isplitl [H2]; · iexact H2
      isplitl [HS0]; · iexact HS0
      iintro ⟨H0, H2, HS0⟩
      isplitl [HS0 Hg]
      · isplitl [HS0]
        · iexists _; isplitr; · ipureintro; exact Filled.of_eq m _ rfl
          iexact HS0
        iexact Hg
      isplitl [Ho]; · iexact Ho
      isplitl [H0]; · iexact H0
      isplitl [H1]; · iexact H1
      iexact H2
    · -- a later row-block, an earlier chunk: nothing happens
      rw [Dat.leavesExact_idle (dats m 0 c) 2 t (idleAt0_2 t (fun h => h1 ((hcond0_1 t).mp h))) (noFlush0_2 t (fun h => h1 ((hcond0_1 t).mp h)))]
      iintro ⟨⟨⟨%d, %hd, HS0⟩, Hg⟩, Ho, ⟨%d0, H0⟩, ⟨%d1, H1⟩, ⟨%d2, H2⟩⟩
      iapply (kernelRun0_C c (grid0.coords t) _ _ _ _ _ _ _ _ (fun h => h0 ((hcond0_0 t).mp h)) (fun h => h1 ((hcond0_1 t).mp h)) _ Set.univ _)
      isplitl [H0]; · iexact H0
      iintro H0
      isplitl [HS0 Hg]
      · isplitl [HS0]
        · iexists _; isplitr; · ipureintro; exact hd.succ_of_ge m (by omega)
          iexact HS0
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is filled yet. -/
theorem hin (c : Dev nD) : Pipeline.ΦA spec0 c ⊢ (dats m 0 c).Φ 0 := by
  rw [show (dats m 0 c).Φ 0 = PhiS m c 0 from rfl, PhiA0_eq]
  unfold PhiS
  iintro ⟨⟨%d, HS0⟩, Hg⟩
  isplitl [HS0]
  · iexists d; isplitr; · ipureintro; exact Filled_zero m c d
    iexact HS0
  iexact Hg

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%d, %hd, HS0⟩, Hg⟩
  isplitl [HS0]
  · iexists d; iexact HS0
  iexact Hg

/-! ## The run and the frame -/

set_option backward.isDefEq.respectTransparency.types false in
/-- Every weakly fair execution of @main terminates, every array of the pipeline ending at what the
    library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdeal.Shared.lean ====
/-
  What the four control cases of the kernel body share.

  The grid has 25 x 5 points, visited row-major: point t has row-block t / 5 and chunk t % 5.
  The body has two conditionals on the coordinates. The first (row-block 0, i.e. t < 5) casts the
  chunk of the second operand it was handed and stores it into rows [2000 (t % 5), 2000 (t % 5) + 2000)
  of the resident scratch. The second (chunk 4, i.e. t % 5 = 4) multiplies the row-block of the first
  operand by the whole scratch and stores the rectified product into the output block; elsewhere the
  output window is idle and is not written back.
-/
import proofs.«165077_g85667417686476_cont_9to1_m_276_7_alg».proof.Proof.Gen.KernelIdeal.Frame
import proofs.«165077_g85667417686476_cont_9to1_m_276_7_alg».proof.Proof.Gen.KernelIdeal.Skeleton
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, in closed form over the grid -/

/-- The first conditional's condition: the point is in the first row-block. -/
abbrev cond0_0 (i : grid0.Coords) : Prop := k0_cond1 i = 1#1
theorem hcond0_0 : ∀ t : Fin cfg0.N, cond0_0 (grid0.coords t) ↔ t.val < 5 :=
  (by decide +kernel : ∀ t : Fin grid0.N, cond0_0 (grid0.coords t) ↔ t.val < 5)

/-- The second conditional's condition: the point is the last chunk of its row-block. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-- The scratch slice a point of the first row-block stores begins at row 2000 (t % 5), column 0. -/
theorem hoff1 : ∀ t : Fin cfg0.N, k0_off1 (grid0.coords t) = ![2000 * (t.val % 5), 0] :=
  (by decide +kernel : ∀ t : Fin grid0.N, k0_off1 (grid0.coords t) = ![2000 * (t.val % 5), 0])

/-! ## Where the windows are idle and where the output is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S400x512 .f32 := win0_2.stage (cfg0.slots t 2)
abbrev hs0_2 (t : Fin cfg0.N) : (ms0_2 t).IsWhole := hstage0_2 ((cfg0.slots t 2).cast nbuf0_2)
/-- The resident scratch: a whole scoped buffer of the kernel's own. -/
abbrev scM0_0 : Memref sig .tc .vmem S10000x512 .bf16 := Memref.whole cc0_scratch0

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.KernelIdeal.Scratch.lean ====
/-
  What the resident scratch holds, as a function of how many chunks have been stored into it.

  The scratch has 10000 rows. A point of the first row-block with chunk number k overwrites rows
  [2000 k, 2000 k + 2000) with the cast of the chunk of the second operand it was handed; nothing
  else ever writes the scratch. So after the points 0 .. n-1 every row r with r / 2000 < n holds the
  cast of row r % 2000 of chunk r / 2000, and from n = 5 on that is the whole scratch.
-/
import proofs.«165077_g85667417686476_cont_9to1_m_276_7_alg».proof.Proof.KernelIdeal.Shared
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Loads and stores through whole-block rectangles -/

theorem zero2 : (![0, 0] : Fin 2 → ℕ) = fun _ => 0 := by
  funext a; match a with | ⟨0, _⟩ => rfl | ⟨1, _⟩ => rfl

/-- A load of the whole block of a whole buffer whose contents read `X` is `X`. -/
theorem readAt_whole_unread {S : Shape} {e : EltTy} {mr : Memref sig .tc .vmem S e} (hm : mr.IsWhole)
    {off : Fin S.rank → ℕ} (hz : off = fun _ => 0) (inb : ∀ a, off a + S.size a ≤ S.size a) (X : S.Idx → Elt F e) :
    mr.view.readAt (Elt F) (Rect.unit (s := S) off S.size inb).toLoadRect (hm.unread X) = X :=
  (View.readAt_eq_ld mr.view (hm.unread X) (Rect.unit off S.size inb)).trans (by rw [hm.read_unread, View.ld_unit_zero hz])

/-- A load of the whole block of a buffer is what the buffer reads. -/
theorem readAt_whole {S : Shape} {e : EltTy} (mr : Memref sig .tc .vmem S e)
    {off : Fin S.rank → ℕ} (hz : off = fun _ => 0) (inb : ∀ a, off a + S.size a ≤ S.size a) (f : mr.view.ty.Contents (Elt F)) :
    mr.view.readAt (Elt F) (Rect.unit (s := S) off S.size inb).toLoadRect f = mr.view.read (Elt F) f :=
  (View.readAt_eq_ld mr.view f (Rect.unit off S.size inb)).trans (View.ld_unit_zero hz inb _)

/-- One store through the whole block leaves its payload. -/
theorem read_writes_whole2 {d : Fin 2 → ℕ} {e : EltTy} (mr : Memref sig .tc .vmem (⟨2, d⟩ : Shape) e)
    (f : mr.view.ty.Contents (Elt F)) (inb : ∀ a : Fin 2, (![0, 0] : Fin 2 → ℕ) a + d a ≤ d a)
    (w : (⟨2, d⟩ : Shape).Idx → Elt F e) :
    mr.view.read (Elt F) (mr.view.writes (Elt F) f [⟨Rect.unit (s := ⟨2, d⟩) ![0, 0] d inb, w⟩]) = w :=
  funext fun y => View.read_writes_cons_unit_of_mem mr.view f inb w [] y y rfl (fun a => by
    match a with
    | ⟨0, _⟩ => exact (Nat.zero_add _).symm
    | ⟨1, _⟩ => exact (Nat.zero_add _).symm)

/-! ## Rows replaced -/

/-- `xs` with rows [o, o + 2000) replaced by the 2000 rows of `w`. -/
def putRows (xs : Vec F S10000x512 .bf16) (o : ℕ) (w : Vec F S2000x512 .bf16) : Vec F S10000x512 .bf16 :=
  fun y => if h : o ≤ (y 0).val ∧ (y 0).val < o + 2000 then
      w (ValueIdx.ix2 ⟨(y 0).val - o, by omega⟩ ⟨(y 1).val, ValueIdx.idx2_lt1 y⟩)
    else xs y

/-- A whole buffer that read `xs`, after one store of `w` through rows [o, o + 2000), reads `putRows xs o w`. -/
theorem read_put {mr : Memref sig .tc .vmem S10000x512 .bf16} (hm : mr.IsWhole) (xs : Vec F S10000x512 .bf16)
    (off : Fin 2 → ℕ) (inb : ∀ a, off a + S2000x512.size a ≤ S10000x512.size a) (w : Vec F S2000x512 .bf16)
    (o : ℕ) (hoff : off = ![o, 0]) :
    mr.view.read (Elt F) (mr.view.writes (Elt F) (hm.unread xs) [⟨Rect.unit (s := S10000x512) off S2000x512.size inb, w⟩])
      = putRows xs o w := by
  funext y
  unfold putRows
  by_cases h : o ≤ (y 0).val ∧ (y 0).val < o + 2000
  · rw [dif_pos h]
    exact View.read_writes_cons_rows_of_mem mr.view (hm.unread xs) inb w [] y
      (ValueIdx.ix2 ⟨(y 0).val - o, by omega⟩ ⟨(y 1).val, ValueIdx.idx2_lt1 y⟩) hoff
      (by show (y 0).val = o + ((y 0).val - o); omega) rfl
  · rw [dif_neg h]
    refine (View.read_writes_cons_rows_of_not_mem (W := 2000) mr.view (hm.unread xs) inb w [] y hoff rfl (by omega)).trans ?_
    rw [View.writes_nil, hm.read_unread]

/-- The slice's offsets are its row offset and column 0. -/
theorem off1_eq (i : grid0.Coords) : k0_off1 i = ![k0_off1 i 0, 0] := by
  funext a; match a with | ⟨0, _⟩ => rfl | ⟨1, _⟩ => rfl

/-! ## The cast of the second operand, chunk by chunk -/

theorem chunk_lt (y : S10000x512.Idx) : (y 0).val / 2000 < cfg0.N := by
  have h := ValueIdx.idx2_lt0 y
  have hN : cfg0.N = 125 := N_0
  omega

/-- Row r of the full scratch: row r % 2000 of what the point with chunk number r / 2000 stores. -/
def castAll (c : Dev nD) : Vec F S10000x512 .bf16 := fun y =>
  k0_pay1 (iblk m c 1 ⟨(y 0).val / 2000, chunk_lt y⟩)
    (ValueIdx.ix2 ⟨(y 0).val % 2000, Nat.mod_lt _ (by norm_num)⟩ ⟨(y 1).val, ValueIdx.idx2_lt1 y⟩)

/-- The rows of the chunks below `n` hold the cast. -/
def Filled (c : Dev nD) (n : ℕ) (d : Vec F S10000x512 .bf16) : Prop :=
  ∀ y : S10000x512.Idx, (y 0).val / 2000 < n → d y = castAll m c y

theorem Filled_zero (c : Dev nD) (d : Vec F S10000x512 .bf16) : Filled m c 0 d := fun _ h => absurd h (Nat.not_lt_zero _)

/-- From the fifth chunk on the scratch is the cast, whole. -/
theorem Filled.eq_castAll {c : Dev nD} {n : ℕ} {d : Vec F S10000x512 .bf16} (h : Filled m c n d) (hn : 5 ≤ n) :
    d = castAll m c :=
  funext fun y => h y (by have := ValueIdx.idx2_lt0 y; omega)

theorem Filled.of_eq {c : Dev nD} (n : ℕ) {d : Vec F S10000x512 .bf16} (h : d = castAll m c) : Filled m c n d :=
  fun y _ => congrFun h y

/-- Past the first row-block nothing is stored and nothing was missing. -/
theorem Filled.succ_of_ge {c : Dev nD} {n : ℕ} {d : Vec F S10000x512 .bf16} (h : Filled m c n d) (hn : 5 ≤ n) :
    Filled m c (n + 1) d := Filled.of_eq m (n + 1) (h.eq_castAll m hn)

theorem pay1_congr (c : Dev nD) (t t' : Fin cfg0.N) (a a' : Fin 2000) (b : Fin 512) (ht : t = t') (ha : a = a') :
    k0_pay1 (iblk m c 1 t) (ValueIdx.ix2 a b) = k0_pay1 (iblk m c 1 t') (ValueIdx.ix2 a' b) := by
  subst ht; subst ha; rfl

/-- A point of the first row-block fills its own chunk's rows. -/
theorem Filled.put {c : Dev nD} (t : Fin cfg0.N) (ht : t.val < 5) {xs : Vec F S10000x512 .bf16} (h : Filled m c t.val xs) :
    Filled m c (t.val + 1) (putRows xs (2000 * (t.val % 5)) (k0_pay1 (iblk m c 1 t))) := by
  intro y hy
  have hmod : t.val % 5 = t.val := Nat.mod_eq_of_lt ht
  unfold putRows
  by_cases hr : 2000 * (t.val % 5) ≤ (y 0).val ∧ (y 0).val < 2000 * (t.val % 5) + 2000
  · rw [dif_pos hr]
    unfold castAll
    exact pay1_congr m c _ _ _ _ _ (Fin.ext (by show t.val = (y 0).val / 2000; omega))
      (Fin.ext (by show (y 0).val - 2000 * (t.val % 5) = (y 0).val % 2000; omega))
  · rw [dif_neg hr]
    exact h y (by omega)

end Cert.KernelIdeal.Body

end
-- ==== Proof.KernelIdeal.Runs.lean ====
/-
  The kernel body run in each of its four control cases, on any whole memrefs: what it needs of the
  buffers it is handed and what it leaves in them.

  A point of the first row-block replaces the rows of its chunk in the scratch by the cast of the
  chunk it was handed (`putRows`); a point with the last chunk number multiplies the block of the
  first operand by whatever the scratch then reads (after its own store, if it made one) and leaves
  the rectified product in the output block. The other buffers are left as they were.
-/
import proofs.«165077_g85667417686476_cont_9to1_m_276_7_alg».proof.Proof.KernelIdeal.Scratch

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Neither conditional taken: the body touches nothing. -/
theorem kernelRun0_C (c : Dev nD) (i : grid0.Coords) (arg2 : Memref sig .tc .vmem S400x10000 .f32) (harg2 : arg2.IsWhole) (arg3 : Memref sig .tc .vmem S2000x512 .f32) (harg3 : arg3.IsWhole) (arg4 : Memref sig .tc .vmem S400x512 .f32) (harg4 : arg4.IsWhole) (arg5 : Memref sig .tc .vmem S10000x512 .bf16) (harg5 : arg5.IsWhole) (hc0 : ¬cond0_0 i) (hc1 : ¬cond0_1 i)
    (R : sProp 𝕄) (E : Set ℕ) (K : PUnit → sProp 𝕄) :
    iprop(R ∗ (R -∗ K ⟨⟩)) ⊢ wp frame (wpE (defs₀ (F := F)) Variants.none c none) E (cc0__gcn_block_kernel i arg2 harg2 arg3 harg3 arg4 harg4 arg5 harg5) K := by
  simp only [cc0__gcn_block_kernel_eq_skeleton]; unfold cc0__gcn_block_kernel_skel
  iintro ⟨HR, Hk⟩
  sl_exec (disch := first | exact hc0 | exact hc1)
  sl_step
  iapply Hk
  iexact HR

set_option maxHeartbeats 4000000 in
/-- First row-block, not the last chunk: the chunk's rows of the scratch are replaced by its cast. -/
theorem kernelRun0_A (c : Dev nD) (i : grid0.Coords) (arg2 : Memref sig .tc .vmem S400x10000 .f32) (harg2 : arg2.IsWhole) (arg3 : Memref sig .tc .vmem S2000x512 .f32) (harg3 : arg3.IsWhole) (arg4 : Memref sig .tc .vmem S400x512 .f32) (harg4 : arg4.IsWhole) (arg5 : Memref sig .tc .vmem S10000x512 .bf16) (harg5 : arg5.IsWhole) (hc0 : cond0_0 i) (hc1 : ¬cond0_1 i)
    (x1 : Vec F S2000x512 .f32) (xs : Vec F S10000x512 .bf16) (E : Set ℕ) (K : PUnit → sProp 𝕄) :
    iprop(owns (c : Thread nD τ) arg3 fullShare x1 ∗ owns (c : Thread nD τ) arg5 fullShare xs
        ∗ (iprop(owns (c : Thread nD τ) arg3 fullShare x1 ∗ owns (c : Thread nD τ) arg5 fullShare (putRows xs (k0_off1 i 0) (k0_pay1 x1))) -∗ K ⟨⟩))
      ⊢ wp frame (wpE (defs₀ (F := F)) Variants.none c none) E (cc0__gcn_block_kernel i arg2 harg2 arg3 harg3 arg4 harg4 arg5 harg5) K := by
  simp only [cc0__gcn_block_kernel_eq_skeleton]; unfold cc0__gcn_block_kernel_skel
  unfold owns
  iintro ⟨⟨%f1, %hf1, H1⟩, ⟨%fs0, %hfs0, HS0⟩, Hk⟩
  obtain rfl := harg3.eq_unread hf1; obtain rfl := harg5.eq_unread hfs0
  sl_exec (disch := first | exact hc0 | exact hc1)
  sl_step
  iapply Hk
  isplitl [H1]
  · iexists _; isplitr; · ipureintro; exact harg3.read_unread _
    iexact H1
  iexists _; isplitr
  swap; · iexact HS0
  ipureintro
  sl_unfold_run_names
  rw [readAt_whole_unread harg3 zero2]
  exact read_put harg5 xs _ _ _ _ (off1_eq i)

set_option maxHeartbeats 4000000 in
/-- Past the first row-block, the last chunk: the output block is the rectified product of the first
    operand's block with the scratch. -/
theorem kernelRun0_D (c : Dev nD) (i : grid0.Coords) (arg2 : Memref sig .tc .vmem S400x10000 .f32) (harg2 : arg2.IsWhole) (arg3 : Memref sig .tc .vmem S2000x512 .f32) (harg3 : arg3.IsWhole) (arg4 : Memref sig .tc .vmem S400x512 .f32) (harg4 : arg4.IsWhole) (arg5 : Memref sig .tc .vmem S10000x512 .bf16) (harg5 : arg5.IsWhole) (hc0 : ¬cond0_0 i) (hc1 : cond0_1 i)
    (x0 : Vec F S400x10000 .f32) (x2 : Vec F S400x512 .f32) (xs : Vec F S10000x512 .bf16) (E : Set ℕ) (K : PUnit → sProp 𝕄) :
    iprop(owns (c : Thread nD τ) arg2 fullShare x0 ∗ owns (c : Thread nD τ) arg4 fullShare x2 ∗ owns (c : Thread nD τ) arg5 fullShare xs
        ∗ (iprop(owns (c : Thread nD τ) arg2 fullShare x0 ∗ owns (c : Thread nD τ) arg4 fullShare (k0_pay2 x0 xs) ∗ owns (c : Thread nD τ) arg5 fullShare xs) -∗ K ⟨⟩))
      ⊢ wp frame (wpE (defs₀ (F := F)) Variants.none c none) E (cc0__gcn_block_kernel i arg2 harg2 arg3 harg3 arg4 harg4 arg5 harg5) K := by
  simp only [cc0__gcn_block_kernel_eq_skeleton]; unfold cc0__gcn_block_kernel_skel
  unfold owns
  iintro ⟨⟨%f0, %hf0, H0⟩, ⟨%f2, %hf2, H2⟩, ⟨%fs0, %hfs0, HS0⟩, Hk⟩
  obtain rfl := harg2.eq_unread hf0; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H2]
  · iexists _; isplitr
    swap; · iexact H2
    ipureintro
    sl_unfold_run_names
    rw [readAt_whole_unread harg2 zero2, readAt_whole_unread harg5 zero2]
    exact read_writes_whole2 arg4 _ _ _
  iexists _; isplitr; · ipureintro; exact harg5.read_unread _
  iexact HS0

set_option maxHeartbeats 4000000 in
/-- First row-block, the last chunk: the chunk's rows are replaced, and the output block is the rectified
    product with the scratch as it reads AFTER that store. -/
theorem kernelRun0_B (c : Dev nD) (i : grid0.Coords) (arg2 : Memref sig .tc .vmem S400x10000 .f32) (harg2 : arg2.IsWhole) (arg3 : Memref sig .tc .vmem S2000x512 .f32) (harg3 : arg3.IsWhole) (arg4 : Memref sig .tc .vmem S400x512 .f32) (harg4 : arg4.IsWhole) (arg5 : Memref sig .tc .vmem S10000x512 .bf16) (harg5 : arg5.IsWhole) (hc0 : cond0_0 i) (hc1 : cond0_1 i)
    (x0 : Vec F S400x10000 .f32) (x1 : Vec F S2000x512 .f32) (x2 : Vec F S400x512 .f32) (xs : Vec F S10000x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 (putRows xs (k0_off1 i 0) (k0_pay1 x1)))
            ∗ owns (c : Thread nD τ) arg5 fullShare (putRows xs (k0_off1 i 0) (k0_pay1 x1))) -∗ K ⟨⟩))
      ⊢ wp frame (wpE (defs₀ (F := F)) Variants.none c none) E (cc0__gcn_block_kernel i arg2 harg2 arg3 harg3 arg4 harg4 arg5 harg5) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [readAt_whole_unread harg2 zero2, readAt_whole_unread harg3 zero2, readAt_whole arg5 zero2,
      read_put harg5 xs _ _ _ _ (off1_eq i)]
    exact read_writes_whole2 arg4 _ _ _
  iexists _; isplitr
  swap; · iexact HS0
  ipureintro
  sl_unfold_run_names
  rw [readAt_whole_unread harg3 zero2]
  exact read_put harg5 xs _ _ _ _ (off1_eq i)

end Cert.KernelIdeal.Body

end
-- ==== Proof.KernelIdeal.Body.lean ====
/-
  The frame of the one region, with its contents named.

  Proof data: each input window's buffer holds its block at every point; the output window's buffer,
  at a point with the last chunk number (where it is written back), holds the rectified product of the
  first operand's row-block with the cast of the whole second operand; the region's invariant before
  point n says the scratch holds SOME contents whose rows of the chunks below n are the cast.
  The body obligation is the four runs, selected by the closed forms of the two conditions.
-/
import proofs.«165077_g85667417686476_cont_9to1_m_276_7_alg».proof.Proof.KernelIdeal.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block and the invariant hold -/

/-- The output block at a point that writes it back. -/
def outAt (c : Dev nD) (t : Fin cfg0.N) : Vec F S400x512 .f32 := k0_pay2 (iblk m c 0 t) (castAll m c)

/-- The invariant before point `n`: the scratch at contents filled below chunk `n`, and the generator register. -/
def PhiS (c : Dev nD) (n : ℕ) : sProp 𝕄 :=
  iprop(iprop(∃ d, ⌜Filled m c n d⌝ ∗ owns (c : Thread nD τ) scM0_0 fullShare d) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- The slice a point of the first row-block stores starts at row 2000 (t % 5). -/
theorem off1_row (t : Fin cfg0.N) : k0_off1 (grid0.coords t) 0 = 2000 * (t.val % 5) := by
  rw [hoff1 t]; rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_castSucc, Phi_succ]
  unfold PhiS
  have hN : t.val < 125 := lt_of_lt_of_eq t.isLt (show cfg0.N = 125 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val < 5
  · by_cases h1 : t.val % 5 = 4
    · -- first row-block, last chunk: the scratch becomes whole, the product is taken with it
      rw [show (dats m 0 c).leavesExact 2 t = owns (c : Thread nD τ) (ms0_2 t) fullShare ((dats m 0 c).after 2 t) from by
        unfold Dat.leavesExact; rw [liveAt0_2 t ((hcond0_1 t).mpr h1)], after0_2]
      iintro ⟨⟨⟨%d, %hd, HS0⟩, Hg⟩, Ho, ⟨%d0, H0⟩, ⟨%d1, H1⟩, ⟨%d2, H2⟩⟩
      have hfill : Filled m c (t.val + 1) (putRows d (k0_off1 (grid0.coords t) 0) (k0_pay1 (iblk m c 1 t))) := by
        rw [off1_row]; exact Filled.put m t h0 hd
      have hall : k0_pay2 (iblk m c 0 t) (putRows d (k0_off1 (grid0.coords t) 0) (k0_pay1 (iblk m c 1 t))) = outAt m c t := by
        unfold outAt; rw [hfill.eq_castAll m (by omega)]
      irw [← hall]
      iapply (kernelRun0_B c (grid0.coords t) _ _ _ _ _ _ _ _ ((hcond0_0 t).mpr h0) ((hcond0_1 t).mpr h1) (iblk m c 0 t) (iblk m c 1 t) _ d Set.univ _)
      isplitl [H0]; · iexact H0
      isplitl [H1]; · iexact H1
      isplitl [H2]; · iexact H2
      isplitl [HS0]; · iexact HS0
      iintro ⟨H0, H1, H2, HS0⟩
      isplitl [HS0 Hg]
      · isplitl [HS0]
        · iexists _; isplitr; · ipureintro; exact hfill
          iexact HS0
        iexact Hg
      isplitl [Ho]; · iexact Ho
      isplitl [H0]; · iexact H0
      isplitl [H1]; · iexact H1
      iexact H2
    · -- first row-block, an earlier chunk: one more chunk of the scratch is filled; the output is idle
      rw [Dat.leavesExact_idle (dats m 0 c) 2 t (idleAt0_2 t (fun h => h1 ((hcond0_1 t).mp h))) (noFlush0_2 t (fun h => h1 ((hcond0_1 t).mp h)))]
      iintro ⟨⟨⟨%d, %hd, HS0⟩, Hg⟩, Ho, ⟨%d0, H0⟩, ⟨%d1, H1⟩, ⟨%d2, H2⟩⟩
      have hfill : Filled m c (t.val + 1) (putRows d (k0_off1 (grid0.coords t) 0) (k0_pay1 (iblk m c 1 t))) := by
        rw [off1_row]; exact Filled.put m t h0 hd
      iapply (kernelRun0_A c (grid0.coords t) _ _ _ _ _ _ _ _ ((hcond0_0 t).mpr h0) (fun h => h1 ((hcond0_1 t).mp h)) (iblk m c 1 t) d Set.univ _)
      isplitl [H1]; · iexact H1
      isplitl [HS0]; · iexact HS0
      iintro ⟨H1, HS0⟩
      isplitl [HS0 Hg]
      · isplitl [HS0]
        · iexists _; isplitr; · ipureintro; exact hfill
          iexact HS0
        iexact Hg
      isplitl [Ho]; · iexact Ho
      isplitl [H0]; · iexact H0
      isplitl [H1]; · iexact H1
      iexists _; iexact H2
  · by_cases h1 : t.val % 5 = 4
    · -- a later row-block, last chunk: the scratch is whole already
      rw [show (dats m 0 c).leavesExact 2 t = owns (c : Thread nD τ) (ms0_2 t) fullShare ((dats m 0 c).after 2 t) from by
        unfold Dat.leavesExact; rw [liveAt0_2 t ((hcond0_1 t).mpr h1)], after0_2]
      iintro ⟨⟨⟨%d, %hd, HS0⟩, Hg⟩, Ho, ⟨%d0, H0⟩, ⟨%d1, H1⟩, ⟨%d2, H2⟩⟩
      have hall : d = castAll m c := hd.eq_castAll m (by omega)
      subst hall
      unfold outAt
      iapply (kernelRun0_D c (grid0.coords t) _ _ _ _ _ _ _ _ (fun h => h0 ((hcond0_0 t).mp h)) ((hcond0_1 t).mpr h1) (iblk m c 0 t) _ (castAll m c) Set.univ _)
      isplitl [H0]; · iexact H0
      isplitl [H2]; · iexact H2
      isplitl [HS0]; · iexact HS0
      iintro ⟨H0, H2, HS0⟩
      isplitl [HS0 Hg]
      · isplitl [HS0]
        · iexists _; isplitr; · ipureintro; exact Filled.of_eq m _ rfl
          iexact HS0
        iexact Hg
      isplitl [Ho]; · iexact Ho
      isplitl [H0]; · iexact H0
      isplitl [H1]; · iexact H1
      iexact H2
    · -- a later row-block, an earlier chunk: nothing happens
      rw [Dat.leavesExact_idle (dats m 0 c) 2 t (idleAt0_2 t (fun h => h1 ((hcond0_1 t).mp h))) (noFlush0_2 t (fun h => h1 ((hcond0_1 t).mp h)))]
      iintro ⟨⟨⟨%d, %hd, HS0⟩, Hg⟩, Ho, ⟨%d0, H0⟩, ⟨%d1, H1⟩, ⟨%d2, H2⟩⟩
      iapply (kernelRun0_C c (grid0.coords t) _ _ _ _ _ _ _ _ (fun h => h0 ((hcond0_0 t).mp h)) (fun h => h1 ((hcond0_1 t).mp h)) _ Set.univ _)
      isplitl [H0]; · iexact H0
      iintro H0
      isplitl [HS0 Hg]
      · isplitl [HS0]
        · iexists _; isplitr; · ipureintro; exact hd.succ_of_ge m (by omega)
          iexact HS0
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is filled yet. -/
theorem hin (c : Dev nD) : Pipeline.ΦA spec0 c ⊢ (dats m 0 c).Φ 0 := by
  rw [show (dats m 0 c).Φ 0 = PhiS m c 0 from rfl, PhiA0_eq]
  unfold PhiS
  iintro ⟨⟨%d, HS0⟩, Hg⟩
  isplitl [HS0]
  · iexists d; isplitr; · ipureintro; exact Filled_zero m c d
    iexact HS0
  iexact Hg

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%d, %hd, HS0⟩, Hg⟩
  isplitl [HS0]
  · iexists d; iexact HS0
  iexact Hg

/-! ## The run and the frame -/

set_option backward.isDefEq.respectTransparency.types false in
/-- Every weakly fair execution of @main terminates, every array of the pipeline ending at what the
    library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The specification: the result as one function of the two argument arrays, index by index, on the
  extended reals. Entry (i, j) of the result is the leaky rectifier with slope 1/2 of entry (i, j) of
  the matrix product: z when z ≥ 0, z / 2 otherwise, at z = Σ_k A[i, k] · B[k, j].
-/
import Idealize.ShloMosaic.PureOps.Ideal
import Idealize.ShloMosaic.Lib.ValueIdx

noncomputable section

namespace Cert.Spec

open Idealize.ShloMosaic Idealize.ShloMosaic.ValueIdx

/-- The leaky rectifier with slope 1/2, spelt with the comparison, the product and the selection both
    programs use: `z` where `z ≥ 0`, else `1/2 · z`. -/
def leaky (z : Ideal .f32) : Ideal .f32 :=
  Scalar.select (FloatOps.cmpf (F := Ideal) .oge z (FloatOps.ofBits (F := Ideal) .f32 0x00000000#32)) z
    (FloatOps.mulf (F := Ideal) (FloatOps.ofBits (F := Ideal) .f32 0x3F000000#32) z)

/-- The rectified matrix product, index by index. -/
def G (A : (⟨2, ![10000, 10000]⟩ : Shape).Idx → Ideal .f32) (B : (⟨2, ![10000, 512]⟩ : Shape).Idx → Ideal .f32) :
    (⟨2, ![10000, 512]⟩ : Shape).Idx → Ideal .f32 :=
  fun i => leaky (∑ k : Fin 10000, A (ix2 (i 0) k) * B (ix2 k (i 1)))

end Cert.Spec

end
-- ==== Proof.KernelIdeal.Value.lean ====
/-
  The idealized kernel's result array is the specification.

  At the ideal instance a change of float format is the identity, so what a point of the first
  row-block stores into the scratch is the chunk of the second operand itself, and the full scratch
  is the second operand, row for row (row r is row r % 2000 of chunk r / 2000, and chunk q is rows
  [2000 q, 2000 q + 2000)). The matrix unit's product into a zero accumulator is, entry by entry, the
  sum over the contracted axis. So the block a point with the last chunk number writes back — row-block
  t / 5 of the output — is that block of the rectified matrix product of the two argument arrays, and
  these 25 blocks tile the output array.
-/
import proofs.«165077_g85667417686476_cont_9to1_m_276_7_alg».proof.Proof.KernelIdeal.Body
import proofs.«165077_g85667417686476_cont_9to1_m_276_7_alg».proof.Proof.Spec
import Idealize.ShloMosaic.PureOps.Ideal.Laws
import Idealize.ShloMosaic.Lib.Pipeline.Value
import Idealize.ShloMosaic.Lib.ValueIdx

set_option maxRecDepth 16384

noncomputable section

namespace Cert.KernelIdeal.IdealValue

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The two payloads at an index -/

/-- The cast stored into the scratch is the chunk itself. -/
theorem pay1_apply (x : Vec Ideal S2000x512 .f32) (j : S2000x512.Idx) : k0_pay1 (F := Ideal) x j = x j := by
  unfold k0_pay1
  rw [shapeCast_self]
  rfl

theorem lhs0 (i : S400x512.Idx) (q : dot_S400x10000_S10000x512_S400x512_1_0_0_1_n_n.contr.Idx) : (dot_S400x10000_S10000x512_S400x512_1_0_0_1_n_n.lhsIdx i q 0).val = (i 0).val := by
  unfold DotDims.lhsIdx
  rw [dif_neg (show ¬(0 : Fin S400x10000.rank) ∈ dot_S400x10000_S10000x512_S400x512_1_0_0_1_n_n.lhsBatch by decide), dif_pos (show (0 : Fin S400x10000.rank) ∈ dot_S400x10000_S10000x512_S400x512_1_0_0_1_n_n.lhsNonContracting by decide)]
  rfl
theorem lhs1 (i : S400x512.Idx) (q : dot_S400x10000_S10000x512_S400x512_1_0_0_1_n_n.contr.Idx) : (dot_S400x10000_S10000x512_S400x512_1_0_0_1_n_n.lhsIdx i q 1).val = (q ⟨0, by decide⟩).val :=
  dot_S400x10000_S10000x512_S400x512_1_0_0_1_n_n.lhsIdx_val_of_single rfl i q
theorem rhs0 (i : S400x512.Idx) (q : dot_S400x10000_S10000x512_S400x512_1_0_0_1_n_n.contr.Idx) : (dot_S400x10000_S10000x512_S400x512_1_0_0_1_n_n.rhsIdx i q 0).val = (q ⟨0, by decide⟩).val :=
  dot_S400x10000_S10000x512_S400x512_1_0_0_1_n_n.rhsIdx_val_of_single rfl i q
theorem rhs1 (i : S400x512.Idx) (q : dot_S400x10000_S10000x512_S400x512_1_0_0_1_n_n.contr.Idx) : (dot_S400x10000_S10000x512_S400x512_1_0_0_1_n_n.rhsIdx i q 1).val = (i 1).val := by
  unfold DotDims.rhsIdx
  rw [dif_neg (show ¬(1 : Fin S10000x512.rank) ∈ dot_S400x10000_S10000x512_S400x512_1_0_0_1_n_n.rhsBatch by decide), dif_pos (show (1 : Fin S10000x512.rank) ∈ dot_S400x10000_S10000x512_S400x512_1_0_0_1_n_n.rhsNonContracting by decide)]
  rfl

/-- The matrix unit's product into the zero accumulator, at entry (r, j): the sum over the contracted axis. -/
theorem mxu_apply (a : FVec Ideal S400x10000 .bf16) (b : FVec Ideal S10000x512 .bf16) (r : Fin 400) (j : Fin 512) :
    matmul (F := Ideal) (φ₁ := .bf16) (φ₂ := .bf16) dot_S400x10000_S10000x512_S400x512_1_0_0_1_n_n none a b (constant (F := Ideal) S400x512 .f32 0x00000000#32) (ix2 r j)
      = ∑ k : Fin 10000, a (ix2 r k) * b (ix2 k j) := by
  show FloatOps.matmul (F := Ideal) (φ₁ := .bf16) (φ₂ := .bf16) dot_S400x10000_S10000x512_S400x512_1_0_0_1_n_n none a b (constant (F := Ideal) S400x512 .f32 0x00000000#32) (ix2 r j) = _
  rw [Ideal.matmul_constant_zero_apply, ← Equiv.sum_comp (contrEquiv1 dot_S400x10000_S10000x512_S400x512_1_0_0_1_n_n 10000 rfl rfl).symm]
  refine Finset.sum_congr rfl fun k _ => ?_
  have hk := contrEquiv1_symm_val dot_S400x10000_S10000x512_S400x512_1_0_0_1_n_n 10000 rfl rfl k
  have el : dot_S400x10000_S10000x512_S400x512_1_0_0_1_n_n.lhsIdx (ix2 r j) ((contrEquiv1 dot_S400x10000_S10000x512_S400x512_1_0_0_1_n_n 10000 rfl rfl).symm k) = ix2 r k := funext fun a => Fin.ext (by
    match a with
    | ⟨0, _⟩ => exact lhs0 _ _
    | ⟨1, _⟩ => exact (lhs1 _ _).trans hk)
  have er : dot_S400x10000_S10000x512_S400x512_1_0_0_1_n_n.rhsIdx (ix2 r j) ((contrEquiv1 dot_S400x10000_S10000x512_S400x512_1_0_0_1_n_n 10000 rfl rfl).symm k) = ix2 k j := funext fun a => Fin.ext (by
    match a with
    | ⟨0, _⟩ => exact (rhs0 _ _).trans hk
    | ⟨1, _⟩ => exact rhs1 _ _)
  rw [el, er]

/-- The output payload at entry (r, j): the rectified sum. -/
theorem pay2_apply (x0 : Vec Ideal S400x10000 .f32) (xs : Vec Ideal S10000x512 .bf16) (r : Fin 400) (j : Fin 512) :
    k0_pay2 (F := Ideal) x0 xs (ix2 r j) = Cert.Spec.leaky (∑ k : Fin 10000, x0 (ix2 r k) * xs (ix2 k j)) := by
  have h : matmul (F := Ideal) (φ₁ := .bf16) (φ₂ := .bf16) dot_S400x10000_S10000x512_S400x512_1_0_0_1_n_n none (truncf (F := Ideal) .bf16 x0 bitsLt_bf16_f32) xs (constant (F := Ideal) S400x512 .f32 0x00000000#32) (ix2 r j)
      = ∑ k : Fin 10000, x0 (ix2 r k) * xs (ix2 k j) := mxu_apply _ xs r j
  rw [← h]
  rfl

/-! ## The windows' blocks at an index -/

/-- The printed index maps over the grid: the first operand's and the output's blocks are row-block t / 5. -/
theorem idx_facts : ∀ t : Fin cfg0.N, win0_0.index t (0 : Fin 2) = t.val / 5 ∧ win0_0.index t (1 : Fin 2) = 0
    ∧ win0_2.index t (0 : Fin 2) = t.val / 5 ∧ win0_2.index t (1 : Fin 2) = 0 :=
  (by decide +kernel : ∀ t : Fin grid0.N, win0_0.index t (0 : Fin 2) = t.val / 5 ∧ win0_0.index t (1 : Fin 2) = 0
    ∧ win0_2.index t (0 : Fin 2) = t.val / 5 ∧ win0_2.index t (1 : Fin 2) = 0)

/-- In the first row-block the second operand's block is chunk t. -/
theorem idx1_facts : ∀ t : Fin cfg0.N, t.val < 5 → win0_1.index t (0 : Fin 2) = t.val ∧ win0_1.index t (1 : Fin 2) = 0 :=
  (by decide +kernel : ∀ t : Fin grid0.N, t.val < 5 → win0_1.index t (0 : Fin 2) = t.val ∧ win0_1.index t (1 : Fin 2) = 0)

theorem row_lt (t : Fin cfg0.N) (r : Fin 400) : 400 * (t.val / 5) + r.val < 10000 := by
  have hN : t.val < 125 := lt_of_lt_of_eq t.isLt (show cfg0.N = 125 from N_0)
  have := r.isLt
  omega

/-- Row r of the first operand's block at point t is row 400 (t / 5) + r of the array. -/
theorem iblk0_apply (c : Dev nD) (t : Fin cfg0.N) (r : Fin 400) (k : Fin 10000) :
    (iblk m c 0 t : Vec Ideal S400x10000 .f32) (ix2 r k) = V m c main_arg0 (ix2 ⟨400 * (t.val / 5) + r.val, row_lt t r⟩ k) := by
  show V m c main_arg0 (((cfg0.win 0).blk t).view.emb (ix2 r k)) = _
  refine congrArg _ ?_
  funext a; apply Fin.ext
  obtain ⟨e0, e1, -, -⟩ := idx_facts t
  match a with
  | ⟨0, _⟩ => show win0_0.index t (0 : Fin 2) * 400 + 1 * r.val = 400 * (t.val / 5) + r.val; omega
  | ⟨1, _⟩ => show win0_0.index t (1 : Fin 2) * 10000 + 1 * k.val = k.val; omega

/-- The full scratch is the second operand. -/
theorem castAll_apply (c : Dev nD) (k : Fin 10000) (q : Fin 512) :
    castAll m c (ix2 k q) = V m c main_arg1 (ix2 k q) := by
  unfold castAll
  refine (pay1_apply _ _).trans ?_
  have hk := k.isLt
  have hlt : k.val / 2000 < 5 := by omega
  obtain ⟨e0, e1⟩ := idx1_facts ⟨k.val / 2000, chunk_lt (ix2 k q)⟩ hlt
  show V m c main_arg1 (((cfg0.win 1).blk ⟨k.val / 2000, chunk_lt (ix2 k q)⟩).view.emb
    (ix2 (⟨k.val % 2000, Nat.mod_lt _ (by norm_num)⟩ : Fin 2000) (⟨q.val, q.isLt⟩ : Fin 512))) = _
  refine congrArg _ ?_
  funext a; apply Fin.ext
  match a with
  | ⟨0, _⟩ =>
    show win0_1.index ⟨k.val / 2000, chunk_lt (ix2 k q)⟩ (0 : Fin 2) * 2000 + 1 * (k.val % 2000) = k.val
    rw [e0]; show k.val / 2000 * 2000 + 1 * (k.val % 2000) = k.val; omega
  | ⟨1, _⟩ =>
    show win0_1.index ⟨k.val / 2000, chunk_lt (ix2 k q)⟩ (1 : Fin 2) * 512 + 1 * q.val = q.val
    rw [e1]; omega

/-- Entry (r, q) of the output block at point t is entry (400 (t / 5) + r, q) of the rectified product. -/
theorem out_apply (c : Dev nD) (t : Fin cfg0.N) (r : Fin 400) (q : Fin 512) :
    outAt m c t (ix2 r q)
      = Cert.Spec.G (V m c main_arg0) (V m c main_arg1) (ix2 ⟨400 * (t.val / 5) + r.val, row_lt t r⟩ q) := by
  unfold outAt
  refine (pay2_apply _ _ r q).trans ?_
  unfold Cert.Spec.G
  refine congrArg Cert.Spec.leaky (Finset.sum_congr rfl fun k _ => ?_)
  rw [iblk0_apply, castAll_apply]

/-! ## From the blocks to the array -/

/-- What point t writes back is block t of the rectified product of the argument arrays. -/
theorem flushed_eq (c : Dev nD) (t : Fin cfg0.N) :
    (dats m 0 c).flushed 2 t = ((cfg0.win 2).blk t).view.read (Elt Ideal) (Cert.Spec.G (V m c main_arg0) (V m c main_arg1)) := by
  show (cfg0.win 2).cut (grid0.coords t) ((dats m 0 c).after 2 t) = _
  rw [after0_2]
  funext j
  obtain ⟨r, q, rfl⟩ : ∃ (r : Fin 400) (q : Fin 512), j = ix2 r q := ⟨j 0, j 1, eq_ix2 j⟩
  show outAt m c t (ix2 r q) = Cert.Spec.G (V m c main_arg0) (V m c main_arg1) (((cfg0.win 2).blk t).view.emb (ix2 r q))
  rw [out_apply]
  refine congrArg _ ?_
  funext a; apply Fin.ext
  obtain ⟨-, -, e2, e3⟩ := idx_facts t
  match a with
  | ⟨0, _⟩ => show 400 * (t.val / 5) + r.val = win0_2.index t (0 : Fin 2) * 400 + 1 * r.val; omega
  | ⟨1, _⟩ => show q.val = win0_2.index t (1 : Fin 2) * 512 + 1 * q.val; omega

/-- An index of the output array is in point t's block iff each coordinate is in the block's range. -/
theorem mem_blk (t : Fin cfg0.N) (i : S10000x512.Idx) :
    i ∈ ((cfg0.win 2).blk t).view.set ↔ ∀ a : Fin 2, win0_2.index t a * S400x512.size a ≤ (i a).val ∧ (i a).val < win0_2.index t a * S400x512.size a + S400x512.size a := by
  show i ∈ ((View.whole main_v0).slice (win0_2.rect t)).set ↔ _
  rw [View.set_slice_whole, Rect.mem_set_unit]
  exact Iff.rfl

/-- Row i of the output is in the block the last point of row-block i / 400 writes back. -/
theorem cover (i : S10000x512.Idx) :
    ∃ t : Fin cfg0.N, (cfg0.win 2).flush t = true ∧ i ∈ ((cfg0.win 2).blk t).view.set := by
  have hi0 := idx2_lt0 i
  have hi1 := idx2_lt1 i
  have hN : cfg0.N = 125 := N_0
  have hlt : 5 * ((i 0).val / 400) + 4 < cfg0.N := by omega
  refine ⟨⟨5 * ((i 0).val / 400) + 4, hlt⟩, (flush0_2 _).mpr (by show (5 * ((i 0).val / 400) + 4) % 5 = 4; omega), ?_⟩
  rw [mem_blk]
  obtain ⟨-, -, e2, e3⟩ := idx_facts ⟨5 * ((i 0).val / 400) + 4, hlt⟩
  have e2' : win0_2.index ⟨5 * ((i 0).val / 400) + 4, hlt⟩ (0 : Fin 2) = (5 * ((i 0).val / 400) + 4) / 5 := e2
  intro a
  match a with
  | ⟨0, _⟩ =>
    show win0_2.index ⟨5 * ((i 0).val / 400) + 4, hlt⟩ (0 : Fin 2) * 400 ≤ (i 0).val ∧ (i 0).val < win0_2.index ⟨5 * ((i 0).val / 400) + 4, hlt⟩ (0 : Fin 2) * 400 + 400
    rw [e2']; omega
  | ⟨1, _⟩ =>
    show win0_2.index ⟨5 * ((i 0).val / 400) + 4, hlt⟩ (1 : Fin 2) * 512 ≤ (i 1).val ∧ (i 1).val < win0_2.index ⟨5 * ((i 0).val / 400) + 4, hlt⟩ (1 : Fin 2) * 512 + 512
    rw [e3]; omega

/-- The output array after the run is the rectified product of the argument arrays. -/
theorem final (c : Dev nD) :
    (dats m 0 c).arrAt 2 cfg0.N = Cert.Spec.G (m ((c : Thread nD τ).loc main_arg0)) (m ((c : Thread nD τ).loc main_arg1)) :=
  (dats m 0 c).arrAt_eq_of_cover 2 (Cert.Spec.G (V m c main_arg0) (V m c main_arg1)) (fun t _ => flushed_eq m c t) cover

/-! ## The run, read -/

/-- Every weakly fair execution terminates with the result array at the specification of the
    argument arrays, which end unchanged. -/
theorem run : θ_run defs (onTc (τ := τ) (main (F := Ideal))) ⟨m, fun _ => 0, ρ⟩ fun r => ∀ c : Dev nD,
      r.2.mem ((c : Thread nD τ).loc main_v0) = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.IdealValue

end
-- ==== Proof.RefSpec.lean ====
/-
  The reference's result is the specification: its matrix product read at an index is the sum over
  the contracted axis, and the comparison with 0, the product with 1/2 and the selection are taken
  entry by entry.
-/
import proofs.«165077_g85667417686476_cont_9to1_m_276_7_alg».proof.Proof.Gen.ReferenceIdeal.Read
import proofs.«165077_g85667417686476_cont_9to1_m_276_7_alg».proof.Proof.Spec

noncomputable section

namespace Cert.RefSpec

open Cert.ReferenceIdeal Cert.ReferenceIdeal.Gen Cert.ReferenceIdeal.Read
open Idealize.ShloMosaic Idealize.ShloMosaic.ValueIdx

theorem lidx_eq (i : S10000x512.Idx) (k : Fin 10000) : lidx_main_v0 i k = ix2 (i 0) k :=
  funext fun a => Fin.ext (by match a with | ⟨0, _⟩ => rfl | ⟨1, _⟩ => rfl)

theorem ridx_eq (i : S10000x512.Idx) (k : Fin 10000) : ridx_main_v0 i k = ix2 k (i 1) :=
  funext fun a => Fin.ext (by match a with | ⟨0, _⟩ => rfl | ⟨1, _⟩ => rfl)

/-- The reference's last stage is the rectified matrix product. -/
theorem result_eq (x0 : (⟨S10000x10000, .f32⟩ : BufTy).Contents (Elt Ideal)) (x1 : (⟨S10000x512, .f32⟩ : BufTy).Contents (Elt Ideal)) :
    val_main_v5 (F := Ideal) x0 x1 = Cert.Spec.G x0 x1 := by
  funext i
  rw [val_main_v5_apply, val_main_v2_apply, val_main_v4_apply, val_main_v1_apply, val_main_v3_apply,
    val_main_cst_apply, val_main_cst_0_apply, val_main_v0_apply]
  simp only [lidx_eq, ridx_eq]
  rfl

end Cert.RefSpec

end
-- ==== Proof.lean ====
/-
  The kernel computes out = leaky(adj · embeds) with slope 1/2 over f32[10000, 10000] × f32[10000, 512],
  on a grid of 25 row-blocks × 5 chunks. During the first row-block each point casts one 2000-row chunk of
  `embeds` into a resident scratch; at the last chunk of every row-block the body multiplies the 400-row
  block of `adj` by the whole scratch, in one product into a zero accumulator, and stores the rectified
  result into the output block, which is written back there and nowhere else.

  Frames (both instances): the region's invariant carries the scratch at contents whose rows of the
  chunks already visited are the cast of `embeds`; the body is run in its four control cases (first
  row-block or not, last chunk or not) and the cases are selected by the closed forms of the two
  conditions over the grid (Proof/Kernel/, Proof/KernelIdeal/: Shared, Scratch, Runs, Body).

  Value (ideal instance): a change of float format is the identity, so the full scratch IS `embeds`; the
  matrix unit's product into zero is the plain sum over the contracted axis, as is the reference's
  `dot_general`; comparison with 0, product with 1/2 and selection are entry by entry on both sides.
  Hence the 25 blocks written back tile the output with the rectified matrix product (Proof/Spec,
  Proof/KernelIdeal/Value), which is also the reference's last stage (Proof/RefSpec). No law beyond
  re-indexing the sum is used, so the finiteness of the inputs is never opened.

  The idealization rewrote no operation: `preserves` is `True`.
-/
import proofs.«165077_g85667417686476_cont_9to1_m_276_7_alg».proof.Defs
import proofs.«165077_g85667417686476_cont_9to1_m_276_7_alg».proof.Proof.Gen.Kernel
import proofs.«165077_g85667417686476_cont_9to1_m_276_7_alg».proof.Proof.Gen.KernelIdeal
import proofs.«165077_g85667417686476_cont_9to1_m_276_7_alg».proof.Proof.Gen.ReferenceIdeal
import proofs.«165077_g85667417686476_cont_9to1_m_276_7_alg».proof.Proof.Gen.ReferenceIdeal.Run
import proofs.«165077_g85667417686476_cont_9to1_m_276_7_alg».proof.Proof.Gen.ReferenceIdeal.Read
import proofs.«165077_g85667417686476_cont_9to1_m_276_7_alg».proof.Proof.Gen.Pre_finite_inputs
import proofs.«165077_g85667417686476_cont_9to1_m_276_7_alg».proof.Proof.Kernel.Body
import proofs.«165077_g85667417686476_cont_9to1_m_276_7_alg».proof.Proof.KernelIdeal.Value
import proofs.«165077_g85667417686476_cont_9to1_m_276_7_alg».proof.Proof.RefSpec
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the rectified matrix product of the (agreeing) argument arrays. -/
theorem algebraic : Cert.algebraic_KernelIdeal_ReferenceIdeal := by
  intro m ρ m' ρ' _ hagree
  refine ⟨_, Cert.KernelIdeal.IdealValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.RefSpec.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
